-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048 : Shape := ⟨2, ![32, 2048]⟩
abbrev S5632x2048 : Shape := ⟨2, ![5632, 2048]⟩
abbrev S5632x32 : Shape := ⟨2, ![5632, 32]⟩
abbrev S2048x5632 : Shape := ⟨2, ![2048, 5632]⟩
abbrev S2048x88 : Shape := ⟨2, ![2048, 88]⟩
abbrev S_ : Shape := ⟨0, ![]⟩

class Facts : Prop where
  bcast_S_S32x2048 : S_.BroadcastsInDim S32x2048 (![] : Fin 0 → Fin S32x2048.rank)
  reducesTo_S32x2048_S_d0_1 : S32x2048.ReducesTo [0, 1] S_
  h_S_ : 0 < S_.numel
  bcast_S_S5632x32 : S_.BroadcastsInDim S5632x32 (![] : Fin 0 → Fin S5632x32.rank)
  reducesTo_S5632x32_S_d0_1 : S5632x32.ReducesTo [0, 1] S_
  bcast_S_S2048x88 : S_.BroadcastsInDim S2048x88 (![] : Fin 0 → Fin S2048x88.rank)
  reducesTo_S2048x88_S_d0_1 : S2048x88.ReducesTo [0, 1] S_

variable [Facts]

def fn_part1 {F : FTy → Type} [FloatOps F] (main_arg6 : FVec F S5632x32 .f32) (main_arg8 : FVec F S2048x88 .f32) (main_arg9 : FVec F S2048x88 .f32) (main_v13 : IVec S_ 1) (main_v16 : IVec S5632x32 1) : IVec S_ 1 :=
  let main_c_5 : IVec S_ 1 := constantI S_ 1 1#1
  let main_v17 : IVec S_ 1 := (fun x v => Host.reduce IntOp.andi x v reducesTo_S5632x32_S_d0_1 h_S_) main_v16 main_c_5
  let main_v18 : IVec S_ 1 := andi main_v13 main_v17
  let main_v19 : FVec F S5632x32 .f32 := Host.absf main_arg6
  let main_cst_6 : FVec F S_ .f32 := constant S_ .f32 0x7F800000#32
  let main_v20 : FVec F S5632x32 .f32 := broadcastInDim S5632x32 ![] bcast_S_S5632x32 main_cst_6
  let main_v21 : IVec S5632x32 1 := cmpf .olt main_v19 main_v20
  let main_c_7 : IVec S_ 1 := constantI S_ 1 1#1
  let main_v22 : IVec S_ 1 := (fun x v => Host.reduce IntOp.andi x v reducesTo_S5632x32_S_d0_1 h_S_) main_v21 main_c_7
  let main_v23 : IVec S_ 1 := andi main_v18 main_v22
  let main_v24 : FVec F S2048x88 .f32 := Host.absf main_arg8
  let main_cst_8 : FVec F S_ .f32 := constant S_ .f32 0x7F800000#32
  let main_v25 : FVec F S2048x88 .f32 := broadcastInDim S2048x88 ![] bcast_S_S2048x88 main_cst_8
  let main_v26 : IVec S2048x88 1 := cmpf .olt main_v24 main_v25
  let main_c_9 : IVec S_ 1 := constantI S_ 1 1#1
  let main_v27 : IVec S_ 1 := (fun x v => Host.reduce IntOp.andi x v reducesTo_S2048x88_S_d0_1 h_S_) main_v26 main_c_9
  let main_v28 : IVec S_ 1 := andi main_v23 main_v27
  let main_v29 : FVec F S2048x88 .f32 := Host.absf main_arg9
  let main_cst_10 : FVec F S_ .f32 := constant S_ .f32 0x7F800000#32
  let main_v30 : FVec F S2048x88 .f32 := broadcastInDim S2048x88 ![] bcast_S_S2048x88 main_cst_10
  let main_v31 : IVec S2048x88 1 := cmpf .olt main_v29 main_v30
  let main_c_11 : IVec S_ 1 := constantI S_ 1 1#1
  let main_v32 : IVec S_ 1 := (fun x v => Host.reduce IntOp.andi x v reducesTo_S2048x88_S_d0_1 h_S_) main_v31 main_c_11
  let main_v33 : IVec S_ 1 := andi main_v28 main_v32
  main_v33

def fn {F : FTy → Type} [FloatOps F] (main_arg0 : FVec F S32x2048 .f32) (main_arg1 : IVec S5632x2048 32) (main_arg2 : FVec F S5632x32 .f32) (main_arg3 : FVec F S5632x32 .f32) (main_arg4 : IVec S5632x2048 32) (main_arg5 : FVec F S5632x32 .f32) (main_arg6 : FVec F S5632x32 .f32) (main_arg7 : IVec S2048x5632 32) (main_arg8 : FVec F S2048x88 .f32) (main_arg9 : FVec F S2048x88 .f32) : IVec S_ 1 :=
  let main_v0 : FVec F S32x2048 .f32 := Host.absf main_arg0
  let main_cst : FVec F S_ .f32 := constant S_ .f32 0x7F800000#32
  let main_v1 : FVec F S32x2048 .f32 := broadcastInDim S32x2048 ![] bcast_S_S32x2048 main_cst
  let main_v2 : IVec S32x2048 1 := cmpf .olt main_v0 main_v1
  let main_c : IVec S_ 1 := constantI S_ 1 1#1
  let main_v3 : IVec S_ 1 := (fun x v => Host.reduce IntOp.andi x v reducesTo_S32x2048_S_d0_1 h_S_) main_v2 main_c
  let main_v4 : FVec F S5632x32 .f32 := Host.absf main_arg2
  let main_cst_0 : FVec F S_ .f32 := constant S_ .f32 0x7F800000#32
  let main_v5 : FVec F S5632x32 .f32 := broadcastInDim S5632x32 ![] bcast_S_S5632x32 main_cst_0
  let main_v6 : IVec S5632x32 1 := cmpf .olt main_v4 main_v5
  let main_c_1 : IVec S_ 1 := constantI S_ 1 1#1
  let main_v7 : IVec S_ 1 := (fun x v => Host.reduce IntOp.andi x v reducesTo_S5632x32_S_d0_1 h_S_) main_v6 main_c_1
  let main_v8 : IVec S_ 1 := andi main_v3 main_v7
  let main_v9 : FVec F S5632x32 .f32 := Host.absf main_arg3
  let main_cst_2 : FVec F S_ .f32 := constant S_ .f32 0x7F800000#32
  let main_v10 : FVec F S5632x32 .f32 := broadcastInDim S5632x32 ![] bcast_S_S5632x32 main_cst_2
  let main_v11 : IVec S5632x32 1 := cmpf .olt main_v9 main_v10
  let main_c_3 : IVec S_ 1 := constantI S_ 1 1#1
  let main_v12 : IVec S_ 1 := (fun x v => Host.reduce IntOp.andi x v reducesTo_S5632x32_S_d0_1 h_S_) main_v11 main_c_3
  let main_v13 : IVec S_ 1 := andi main_v8 main_v12
  let main_v14 : FVec F S5632x32 .f32 := Host.absf main_arg5
  let main_cst_4 : FVec F S_ .f32 := constant S_ .f32 0x7F800000#32
  let main_v15 : FVec F S5632x32 .f32 := broadcastInDim S5632x32 ![] bcast_S_S5632x32 main_cst_4
  let main_v16 : IVec S5632x32 1 := cmpf .olt main_v14 main_v15
  fn_part1 (F := F) main_arg6 main_arg8 main_arg9 main_v13 main_v16
-- ==== Kernel.lean ====
abbrev S32x2048 : Shape := ⟨2, ![32, 2048]⟩
abbrev S5632x2048 : Shape := ⟨2, ![5632, 2048]⟩
abbrev S5632x32 : Shape := ⟨2, ![5632, 32]⟩
abbrev S2048x5632 : Shape := ⟨2, ![2048, 5632]⟩
abbrev S2048x88 : Shape := ⟨2, ![2048, 88]⟩
abbrev S32x5632 : Shape := ⟨2, ![32, 5632]⟩
abbrev S512x2048 : Shape := ⟨2, ![512, 2048]⟩
abbrev S512x32 : Shape := ⟨2, ![512, 32]⟩
abbrev S32x512 : Shape := ⟨2, ![32, 512]⟩
abbrev S512x32x64 : Shape := ⟨3, ![512, 32, 64]⟩
abbrev S512x32x1 : Shape := ⟨3, ![512, 32, 1]⟩
abbrev S256x5632 : Shape := ⟨2, ![256, 5632]⟩
abbrev S256x88 : Shape := ⟨2, ![256, 88]⟩
abbrev S32x256 : Shape := ⟨2, ![32, 256]⟩
abbrev S256x88x64 : Shape := ⟨3, ![256, 88, 64]⟩
abbrev S256x88x1 : Shape := ⟨3, ![256, 88, 1]⟩

abbrev nBuf : Space → Nat
  | .hbm => 12
  | .vmem => 24
  | .smem => 0
  | _ => 0

abbrev bufTy : (tb : Table) → Fin (tcTables nBuf tb) → BufTy
  | .hbm, ⟨0, _⟩ => ⟨S32x2048, .f32⟩
  | .hbm, ⟨1, _⟩ => ⟨S5632x2048, .i32⟩
  | .hbm, ⟨2, _⟩ => ⟨S5632x32, .f32⟩
  | .hbm, ⟨3, _⟩ => ⟨S5632x32, .f32⟩
  | .hbm, ⟨4, _⟩ => ⟨S5632x2048, .i32⟩
  | .hbm, ⟨5, _⟩ => ⟨S5632x32, .f32⟩
  | .hbm, ⟨6, _⟩ => ⟨S5632x32, .f32⟩
  | .hbm, ⟨7, _⟩ => ⟨S2048x5632, .i32⟩
  | .hbm, ⟨8, _⟩ => ⟨S2048x88, .f32⟩
  | .hbm, ⟨9, _⟩ => ⟨S2048x88, .f32⟩
  | .hbm, ⟨10, _⟩ => ⟨S32x5632, .bf16⟩
  | .hbm, ⟨11, _⟩ => ⟨S32x2048, .f32⟩
  | .local _ .vmem, ⟨0, _⟩ => ⟨S32x2048, .f32⟩
  | .local _ .vmem, ⟨1, _⟩ => ⟨S512x2048, .i32⟩
  | .local _ .vmem, ⟨2, _⟩ => ⟨S512x2048, .i32⟩
  | .local _ .vmem, ⟨3, _⟩ => ⟨S512x32, .f32⟩
  | .local _ .vmem, ⟨4, _⟩ => ⟨S512x32, .f32⟩
  | .local _ .vmem, ⟨5, _⟩ => ⟨S512x32, .f32⟩
  | .local _ .vmem, ⟨6, _⟩ => ⟨S512x32, .f32⟩
  | .local _ .vmem, ⟨7, _⟩ => ⟨S512x2048, .i32⟩
  | .local _ .vmem, ⟨8, _⟩ => ⟨S512x2048, .i32⟩
  | .local _ .vmem, ⟨9, _⟩ => ⟨S512x32, .f32⟩
  | .local _ .vmem, ⟨10, _⟩ => ⟨S512x32, .f32⟩
  | .local _ .vmem, ⟨11, _⟩ => ⟨S512x32, .f32⟩
  | .local _ .vmem, ⟨12, _⟩ => ⟨S512x32, .f32⟩
  | .local _ .vmem, ⟨13, _⟩ => ⟨S32x512, .bf16⟩
  | .local _ .vmem, ⟨14, _⟩ => ⟨S32x512, .bf16⟩
  | .local _ .vmem, ⟨15, _⟩ => ⟨S32x5632, .bf16⟩
  | .local _ .vmem, ⟨16, _⟩ => ⟨S256x5632, .i32⟩
  | .local _ .vmem, ⟨17, _⟩ => ⟨S256x5632, .i32⟩
  | .local _ .vmem, ⟨18, _⟩ => ⟨S256x88, .f32⟩
  | .local _ .vmem, ⟨19, _⟩ => ⟨S256x88, .f32⟩
  | .local _ .vmem, ⟨20, _⟩ => ⟨S256x88, .f32⟩
  | .local _ .vmem, ⟨21, _⟩ => ⟨S256x88, .f32⟩
  | .local _ .vmem, ⟨22, _⟩ => ⟨S32x256, .f32⟩
  | .local _ .vmem, ⟨23, _⟩ => ⟨S32x256, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc1_sem0_0 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S32x5632 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x5632 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x88 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x88 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S32x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S32x2048_S32x2048_0_0 : ∀ a, (![0, 0] : Fin 2 → Nat) a + S32x2048.size a ≤ S32x2048.size a
  h_S32x2048 : 0 < S32x2048.numel
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x32x64 : S512x2048.ShapeCasts S512x32x64
  inb_S512x32_S512x32_0_0 : ∀ a, (![0, 0] : Fin 2 → Nat) a + S512x32.size a ≤ S512x32.size a
  h_S512x32 : 0 < S512x32.numel
  shapeCasts_S512x32_S512x32x1 : S512x32.ShapeCasts S512x32x1
  broadcasts_S512x32x1_S512x32x64 : S512x32x1.Broadcasts S512x32x64
  shapeCasts_S512x32x64_S512x2048 : S512x32x64.ShapeCasts S512x2048
  inb_S32x512_S32x512_0_0 : ∀ a, (![0, 0] : Fin 2 → Nat) a + S32x512.size a ≤ S32x512.size a
  h_S32x512 : 0 < S32x512.numel
  packedbf16_S32x512_S32x512_0_0 : (Rect.unit (s := S32x512) ![0, 0] S32x512.size inb_S32x512_S32x512_0_0).PackedRows (EltTy.packing .bf16)
  inb_S32x5632_S32x5632_0_0 : ∀ a, (![0, 0] : Fin 2 → Nat) a + S32x5632.size a ≤ S32x5632.size a
  h_S32x5632 : 0 < S32x5632.numel
  shapeCasts_S32x5632_S32x5632 : S32x5632.ShapeCasts S32x5632
  inb_S256x5632_S256x5632_0_0 : ∀ a, (![0, 0] : Fin 2 → Nat) a + S256x5632.size a ≤ S256x5632.size a
  h_S256x5632 : 0 < S256x5632.numel
  shapeCasts_S256x5632_S256x88x64 : S256x5632.ShapeCasts S256x88x64
  inb_S256x88_S256x88_0_0 : ∀ a, (![0, 0] : Fin 2 → Nat) a + S256x88.size a ≤ S256x88.size a
  h_S256x88 : 0 < S256x88.numel
  shapeCasts_S256x88_S256x88x1 : S256x88.ShapeCasts S256x88x1
  broadcasts_S256x88x1_S256x88x64 : S256x88x1.Broadcasts S256x88x64
  shapeCasts_S256x88x64_S256x5632 : S256x88x64.ShapeCasts S256x5632
  inb_S32x256_S32x256_0_0 : ∀ a, (![0, 0] : Fin 2 → Nat) a + S32x256.size a ≤ S32x256.size a
  h_S32x256 : 0 < S32x256.numel
  dot_S32x2048_S512x2048_S32x512_1_1_0_0_n_n_wf : DotDims.WF S32x2048 S512x2048 S32x512 [1] [1] [0] [0] [] []
  dot_S32x5632_S256x5632_S32x256_1_1_0_0_n_n_wf : DotDims.WF S32x5632 S256x5632 S32x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x2048.size a ≤ S32x2048.size a
  hwx0_0 : ∀ i : grid0.Coords, EltTy.bits .f32 = 32 ∨ (Rect.block (s := S32x2048) S32x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S5632x2048.size a
  hwx0_1 : ∀ i : grid0.Coords, EltTy.bits .i32 = 32 ∨ (Rect.block (s := S5632x2048) S512x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S5632x32.size a
  hwx0_2 : ∀ i : grid0.Coords, EltTy.bits .f32 = 32 ∨ (Rect.block (s := S5632x32) S512x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x32.size a ≤ S5632x32.size a
  hwx0_3 : ∀ i : grid0.Coords, EltTy.bits .f32 = 32 ∨ (Rect.block (s := S5632x32) S512x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S5632x2048.size a
  hwx0_4 : ∀ i : grid0.Coords, EltTy.bits .i32 = 32 ∨ (Rect.block (s := S5632x2048) S512x2048.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x32.size a ≤ S5632x32.size a
  hwx0_5 : ∀ i : grid0.Coords, EltTy.bits .f32 = 32 ∨ (Rect.block (s := S5632x32) S512x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x32.size a ≤ S5632x32.size a
  hwx0_6 : ∀ i : grid0.Coords, EltTy.bits .f32 = 32 ∨ (Rect.block (s := S5632x32) S512x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x512.size a ≤ S32x5632.size a
  hwx0_7 : ∀ i : grid0.Coords, EltTy.bits .bf16 = 32 ∨ (Rect.block (s := S32x5632) S32x512.size (cc0_transform_7 i) (hinb0_7 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S32x5632.size a ≤ S32x5632.size a
  hwx1_0 : ∀ i : grid1.Coords, EltTy.bits .bf16 = 32 ∨ (Rect.block (s := S32x5632) S32x5632.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x5632.size a ≤ S2048x5632.size a
  hwx1_1 : ∀ i : grid1.Coords, EltTy.bits .i32 = 32 ∨ (Rect.block (s := S2048x5632) S256x5632.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x88.size a ≤ S2048x88.size a
  hwx1_2 : ∀ i : grid1.Coords, EltTy.bits .f32 = 32 ∨ (Rect.block (s := S2048x88) S256x88.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x88.size a ≤ S2048x88.size a
  hwx1_3 : ∀ i : grid1.Coords, EltTy.bits .f32 = 32 ∨ (Rect.block (s := S2048x88) S256x88.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S32x256.size a ≤ S32x2048.size a
  hwx1_4 : ∀ i : grid1.Coords, EltTy.bits .f32 = 32 ∨ (Rect.block (s := S32x2048) S32x256.size (cc1_transform_4 i) (hinb1_4 i)).WholeWords (EltTy.packing .f32)

variable [Facts₀]

def dot_S32x2048_S512x2048_S32x512_1_1_0_0_n_n : DotDims S32x2048 S512x2048 S32x512 where
  lhsContracting := [1]
  rhsContracting := [1]
  lhsNonContracting := [0]
  rhsNonContracting := [0]
  lhsBatch := []
  rhsBatch := []
  wf := dot_S32x2048_S512x2048_S32x512_1_1_0_0_n_n_wf
def dot_S32x5632_S256x5632_S32x256_1_1_0_0_n_n : DotDims S32x5632 S256x5632 S32x256 where
  lhsContracting := [1]
  rhsContracting := [1]
  lhsNonContracting := [0]
  rhsNonContracting := [0]
  lhsBatch := []
  rhsBatch := []
  wf := dot_S32x5632_S256x5632_S32x256_1_1_0_0_n_n_wf

abbrev win0_0 : Pipeline.Window sig grid0 :=
  Pipeline.Window.ofSpec (Memref.whole main_arg0) S32x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x32.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x32.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0) S32x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v0) S32x5632.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S256x5632.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S256x88.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S256x88.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S32x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S32x2048 : Shape := ⟨2, ![32, 2048]⟩
abbrev S5632x2048 : Shape := ⟨2, ![5632, 2048]⟩
abbrev S5632x32 : Shape := ⟨2, ![5632, 32]⟩
abbrev S2048x5632 : Shape := ⟨2, ![2048, 5632]⟩
abbrev S2048x88 : Shape := ⟨2, ![2048, 88]⟩
abbrev S5632x32x64 : Shape := ⟨3, ![5632, 32, 64]⟩
abbrev S5632x32x1 : Shape := ⟨3, ![5632, 32, 1]⟩
abbrev S2048x88x64 : Shape := ⟨3, ![2048, 88, 64]⟩
abbrev S2048x88x1 : Shape := ⟨3, ![2048, 88, 1]⟩
abbrev S32x5632 : Shape := ⟨2, ![32, 5632]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S5632x2048, .i32⟩
  | .hbm, ⟨2, _⟩ => ⟨S5632x32, .f32⟩
  | .hbm, ⟨3, _⟩ => ⟨S5632x32, .f32⟩
  | .hbm, ⟨4, _⟩ => ⟨S5632x2048, .i32⟩
  | .hbm, ⟨5, _⟩ => ⟨S5632x32, .f32⟩
  | .hbm, ⟨6, _⟩ => ⟨S5632x32, .f32⟩
  | .hbm, ⟨7, _⟩ => ⟨S2048x5632, .i32⟩
  | .hbm, ⟨8, _⟩ => ⟨S2048x88, .f32⟩
  | .hbm, ⟨9, _⟩ => ⟨S2048x88, .f32⟩
  | .hbm, ⟨10, _⟩ => ⟨S5632x32x64, .i32⟩
  | .hbm, ⟨11, _⟩ => ⟨S5632x32x64, .f32⟩
  | .hbm, ⟨12, _⟩ => ⟨S5632x32x1, .f32⟩
  | .hbm, ⟨13, _⟩ => ⟨S5632x32x64, .f32⟩
  | .hbm, ⟨14, _⟩ => ⟨S5632x32x64, .f32⟩
  | .hbm, ⟨15, _⟩ => ⟨S5632x32x1, .f32⟩
  | .hbm, ⟨16, _⟩ => ⟨S5632x32x64, .f32⟩
  | .hbm, ⟨17, _⟩ => ⟨S5632x32x64, .f32⟩
  | .hbm, ⟨18, _⟩ => ⟨S5632x2048, .f32⟩
  | .hbm, ⟨19, _⟩ => ⟨S5632x32x64, .i32⟩
  | .hbm, ⟨20, _⟩ => ⟨S5632x32x64, .f32⟩
  | .hbm, ⟨21, _⟩ => ⟨S5632x32x1, .f32⟩
  | .hbm, ⟨22, _⟩ => ⟨S5632x32x64, .f32⟩
  | .hbm, ⟨23, _⟩ => ⟨S5632x32x64, .f32⟩
  | .hbm, ⟨24, _⟩ => ⟨S5632x32x1, .f32⟩
  | .hbm, ⟨25, _⟩ => ⟨S5632x32x64, .f32⟩
  | .hbm, ⟨26, _⟩ => ⟨S5632x32x64, .f32⟩
  | .hbm, ⟨27, _⟩ => ⟨S5632x2048, .f32⟩
  | .hbm, ⟨28, _⟩ => ⟨S2048x88x64, .i32⟩
  | .hbm, ⟨29, _⟩ => ⟨S2048x88x64, .f32⟩
  | .hbm, ⟨30, _⟩ => ⟨S2048x88x1, .f32⟩
  | .hbm, ⟨31, _⟩ => ⟨S2048x88x64, .f32⟩
  | .hbm, ⟨32, _⟩ => ⟨S2048x88x64, .f32⟩
  | .hbm, ⟨33, _⟩ => ⟨S2048x88x1, .f32⟩
  | .hbm, ⟨34, _⟩ => ⟨S2048x88x64, .f32⟩
  | .hbm, ⟨35, _⟩ => ⟨S2048x88x64, .f32⟩
  | .hbm, ⟨36, _⟩ => ⟨S2048x5632, .f32⟩
  | .hbm, ⟨37, _⟩ => ⟨S2048x5632, .f32⟩
  | .hbm, ⟨38, _⟩ => ⟨S32x5632, .f32⟩
  | .hbm, ⟨39, _⟩ => ⟨S32x5632, .f32⟩
  | .hbm, ⟨40, _⟩ => ⟨S32x5632, .f32⟩
  | .hbm, ⟨41, _⟩ => ⟨S_, .f32⟩
  | .hbm, ⟨42, _⟩ => ⟨S32x5632, .f32⟩
  | .hbm, ⟨43, _⟩ => ⟨S32x5632, .f32⟩
  | .hbm, ⟨44, _⟩ => ⟨S_, .f32⟩
  | .hbm, ⟨45, _⟩ => ⟨S32x5632, .f32⟩
  | .hbm, ⟨46, _⟩ => ⟨S32x5632, .f32⟩
  | .hbm, ⟨47, _⟩ => ⟨S32x5632, .f32⟩
  | .hbm, ⟨48, _⟩ => ⟨S2048x5632, .f32⟩
  | .hbm, ⟨49, _⟩ => ⟨S32x5632, .f32⟩
  | .hbm, ⟨50, _⟩ => ⟨S32x5632, .f32⟩
  | .hbm, ⟨51, _⟩ => ⟨S5632x2048, .f32⟩
  | .hbm, ⟨52, _⟩ => ⟨S32x2048, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]

class Facts₀ : Prop where
  shapeCasts_S5632x2048_S5632x32x64 : S5632x2048.ShapeCasts S5632x32x64
  bcast_S5632x32_S5632x32x1_0_1 : S5632x32.BroadcastsInDim S5632x32x1 (![0, 1] : Fin 2 → Fin S5632x32x1.rank)
  bcast_S5632x32x1_S5632x32x64_0_1_2 : S5632x32x1.BroadcastsInDim S5632x32x64 (![0, 1, 2] : Fin 3 → Fin S5632x32x64.rank)
  shapeCasts_S5632x32x64_S5632x2048 : S5632x32x64.ShapeCasts S5632x2048
  shapeCasts_S2048x5632_S2048x88x64 : S2048x5632.ShapeCasts S2048x88x64
  bcast_S2048x88_S2048x88x1_0_1 : S2048x88.BroadcastsInDim S2048x88x1 (![0, 1] : Fin 2 → Fin S2048x88x1.rank)
  bcast_S2048x88x1_S2048x88x64_0_1_2 : S2048x88x1.BroadcastsInDim S2048x88x64 (![0, 1, 2] : Fin 3 → Fin S2048x88x64.rank)
  shapeCasts_S2048x88x64_S2048x5632 : S2048x88x64.ShapeCasts S2048x5632
  transposes_S5632x2048_S2048x5632_1_0 : S5632x2048.Transposes [1, 0] S2048x5632
  bcast_S_S32x5632 : S_.BroadcastsInDim S32x5632 (![] : Fin 0 → Fin S32x5632.rank)
  transposes_S2048x5632_S5632x2048_1_0 : S2048x5632.Transposes [1, 0] S5632x2048
  dot_S32x2048_S2048x5632_S32x5632_1_0_0_1_n_n_wf : DotDims.WF S32x2048 S2048x5632 S32x5632 [1] [0] [0] [1] [] []
  dot_S32x5632_S5632x2048_S32x2048_1_0_0_1_n_n_wf : DotDims.WF S32x5632 S5632x2048 S32x2048 [1] [0] [0] [1] [] []

variable [Facts₀]

def dot_S32x2048_S2048x5632_S32x5632_1_0_0_1_n_n : DotDims S32x2048 S2048x5632 S32x5632 where
  lhsContracting := [1]
  rhsContracting := [0]
  lhsNonContracting := [0]
  rhsNonContracting := [1]
  lhsBatch := []
  rhsBatch := []
  wf := dot_S32x2048_S2048x5632_S32x5632_1_0_0_1_n_n_wf
def dot_S32x5632_S5632x2048_S32x2048_1_0_0_1_n_n : DotDims S32x5632 S5632x2048 S32x2048 where
  lhsContracting := [1]
  rhsContracting := [0]
  lhsNonContracting := [0]
  rhsNonContracting := [1]
  lhsBatch := []
  rhsBatch := []
  wf := dot_S32x5632_S5632x2048_S32x2048_1_0_0_1_n_n_wf

class Facts : Prop extends Facts₀ where

variable [Facts]
-- ==== Proof.Spec.lean ====
/-
  The mathematics both programs compute, index by index on the extended reals.

  A weight matrix is stored as integer codes with one scale and one zero point per group of 64 consecutive
  columns; its entry at row r, column k is (code(r,k) − zero(r, k/64)) · scale(r, k/64). The gated hidden
  layer is h(p,n) = g · σ(g) · u with g = Σₖ x(p,k)·Wgate(n,k), u = Σₖ x(p,k)·Wup(n,k) and σ the logistic
  function 1/(1+e^(−g)); the output is out(p,j) = Σₙ h(p,n)·Wdown(j,n).
-/
import Idealize.ShloMosaic.PureOps.Ideal
import Idealize.ShloMosaic.Lib.ValueIdx

noncomputable section

namespace Cert.QuantMlp

open Idealize.ShloMosaic Idealize.ShloMosaic.ValueIdx

/-- The group (of 64 consecutive columns) a column belongs to. -/
def grp {C G : Nat} (hC : C = G * 64) (k : Fin C) : Fin G := ⟨k.val / 64, by have := k.isLt; omega⟩

theorem grp_val {C G : Nat} (hC : C = G * 64) (k : Fin C) : (grp hC k).val = k.val / 64 := rfl

/-- One dequantized weight entry: (code − its group's zero point) · its group's scale. -/
def deq {R C G : Nat} (hC : C = G * 64) (wq : (⟨2, ![R, C]⟩ : Shape).Idx → BitVec 32)
    (s z : (⟨2, ![R, G]⟩ : Shape).Idx → EReal) (r : Fin R) (k : Fin C) : EReal :=
  ((FloatOps.sitofp (F := Ideal) .f32 (wq (ix2 r k)) : EReal) - z (ix2 r (grp hC k))) * s (ix2 r (grp hC k))

/-- Row p of the activations against row n of a dequantized weight: entry (p,n) of x·Wᵀ. -/
def proj {P R C G : Nat} (hC : C = G * 64) (x : (⟨2, ![P, C]⟩ : Shape).Idx → EReal)
    (wq : (⟨2, ![R, C]⟩ : Shape).Idx → BitVec 32) (s z : (⟨2, ![R, G]⟩ : Shape).Idx → EReal)
    (p : Fin P) (n : Fin R) : EReal :=
  ∑ k : Fin C, x (ix2 p k) * deq hC wq s z n k

/-- The gated hidden value g·σ(g)·u at (p,n). -/
def hidden {P R C G : Nat} (hC : C = G * 64) (x : (⟨2, ![P, C]⟩ : Shape).Idx → EReal)
    (gq : (⟨2, ![R, C]⟩ : Shape).Idx → BitVec 32) (gs gz : (⟨2, ![R, G]⟩ : Shape).Idx → EReal)
    (uq : (⟨2, ![R, C]⟩ : Shape).Idx → BitVec 32) (us uz : (⟨2, ![R, G]⟩ : Shape).Idx → EReal)
    (p : Fin P) (n : Fin R) : EReal :=
  proj hC x gq gs gz p n * Ideal.logistic (proj hC x gq gs gz p n) * proj hC x uq us uz p n

theorem c2048 : 2048 = 32 * 64 := rfl
theorem c5632 : 5632 = 88 * 64 := rfl

/-- The hidden layer of the whole problem as an array [32, 5632]. -/
def hiddenArr (x : (⟨2, ![32, 2048]⟩ : Shape).Idx → EReal)
    (gq : (⟨2, ![5632, 2048]⟩ : Shape).Idx → BitVec 32) (gs gz : (⟨2, ![5632, 32]⟩ : Shape).Idx → EReal)
    (uq : (⟨2, ![5632, 2048]⟩ : Shape).Idx → BitVec 32) (us uz : (⟨2, ![5632, 32]⟩ : Shape).Idx → EReal) :
    (⟨2, ![32, 5632]⟩ : Shape).Idx → EReal :=
  fun i => hidden c2048 x gq gs gz uq us uz (i 0) (i 1)

/-- The output of the whole problem as an array [32, 2048]: the hidden layer against the dequantized down weight. -/
def outArr (h : (⟨2, ![32, 5632]⟩ : Shape).Idx → EReal)
    (dq : (⟨2, ![2048, 5632]⟩ : Shape).Idx → BitVec 32) (ds dz : (⟨2, ![2048, 88]⟩ : Shape).Idx → EReal) :
    (⟨2, ![32, 2048]⟩ : Shape).Idx → EReal :=
  fun i => proj c5632 h dq ds dz (i 0) (i 1)

end Cert.QuantMlp

end
-- ==== Proof.RefIsSpec.lean ====
/-
  The reference program's result is the specification.

  The reference reshapes each code matrix to [rows, groups, 64], subtracts the zero point and multiplies by the
  scale of the group, and reshapes back: read at (r, k) that is the dequantized entry of row r, column k, because
  the row-major position r·C + k splits as row r, group k/64, lane k%64. It then transposes each weight and
  contracts: entry (p, n) of x·Wᵀ is Σₖ x(p,k)·W(n,k). Its silu is g·(1/(1+e^(−g))), which is g·σ(g).
-/
import proofs.«121343_j16587163697466_2_alg».proof.Proof.Gen.ReferenceIdeal.Read
import proofs.«121343_j16587163697466_2_alg».proof.Proof.Spec

noncomputable section

namespace Cert.QuantMlp.Ref

open Cert.ReferenceIdeal Cert.ReferenceIdeal.Read Cert.QuantMlp
open Idealize.ShloMosaic Idealize.ShloMosaic.ValueIdx

/-! ## Row-major arithmetic of the two reshapes (C = 2048 = 32·64 and C = 5632 = 88·64) -/

theorem pos_row_a (a b : Nat) (hb : b < 2048) :
    ((((a * 2048 + b) / 2048) * 32 + (a * 2048 + b) / 64 % 32) * 64 + (a * 2048 + b) % 64) / 2048 = a := by omega
theorem pos_col_a (a b : Nat) (hb : b < 2048) :
    ((((a * 2048 + b) / 2048) * 32 + (a * 2048 + b) / 64 % 32) * 64 + (a * 2048 + b) % 64) % 2048 = b := by omega
theorem row_a (a b : Nat) (hb : b < 2048) : (a * 2048 + b) / 2048 = a := by omega
theorem grp_a (a b : Nat) (hb : b < 2048) : (a * 2048 + b) / 64 % 32 = b / 64 := by omega

theorem pos_row_b (a b : Nat) (hb : b < 5632) :
    ((((a * 5632 + b) / 5632) * 88 + (a * 5632 + b) / 64 % 88) * 64 + (a * 5632 + b) % 64) / 5632 = a := by omega
theorem pos_col_b (a b : Nat) (hb : b < 5632) :
    ((((a * 5632 + b) / 5632) * 88 + (a * 5632 + b) / 64 % 88) * 64 + (a * 5632 + b) % 64) % 5632 = b := by omega
theorem row_b (a b : Nat) (hb : b < 5632) : (a * 5632 + b) / 5632 = a := by omega
theorem grp_b (a b : Nat) (hb : b < 5632) : (a * 5632 + b) / 64 % 88 = b / 64 := by omega

/-! ## The three dequantized weights -/

/-- The gate weight as the reference builds it, read at (r, k). -/
theorem gate_weight (x1 : (⟨S5632x2048, .i32⟩ : BufTy).Contents (Elt Ideal)) (x2 x3 : (⟨S5632x32, .f32⟩ : BufTy).Contents (Elt Ideal))
    (j : S5632x2048.Idx) : val_main_v8 (F := Ideal) x1 x2 x3 j = deq c2048 x1 x2 x3 (j 0) (j 1) := by
  have h1 : (j 1).val < 2048 := (j 1).isLt
  rw [val_main_v8_apply, val_main_v7_apply, val_main_v4_apply, val_main_v1_apply, val_main_v0_apply, val_main_v3_apply,
    val_main_v2_apply, val_main_v6_apply, val_main_v5_apply]
  have e0 : idx_main_v0 (idx_main_v8 j) = ix2 (j 0) (j 1) := funext fun a => Fin.ext (by
    match a with
    | ⟨0, _⟩ => exact pos_row_a _ _ h1
    | ⟨1, _⟩ => exact pos_col_a _ _ h1)
  have e1 : idx_main_v2 (idx_main_v3 (idx_main_v8 j)) = ix2 (j 0) (grp c2048 (j 1)) := funext fun a => Fin.ext (by
    match a with
    | ⟨0, _⟩ => exact row_a _ _ h1
    | ⟨1, _⟩ => exact grp_a _ _ h1)
  have e2 : idx_main_v5 (idx_main_v6 (idx_main_v8 j)) = ix2 (j 0) (grp c2048 (j 1)) := funext fun a => Fin.ext (by
    match a with
    | ⟨0, _⟩ => exact row_a _ _ h1
    | ⟨1, _⟩ => exact grp_a _ _ h1)
  rw [e0, e1, e2]
  rfl

/-- The up weight as the reference builds it, read at (r, k). -/
theorem up_weight (x4 : (⟨S5632x2048, .i32⟩ : BufTy).Contents (Elt Ideal)) (x5 x6 : (⟨S5632x32, .f32⟩ : BufTy).Contents (Elt Ideal))
    (j : S5632x2048.Idx) : val_main_v17 (F := Ideal) x4 x5 x6 j = deq c2048 x4 x5 x6 (j 0) (j 1) := by
  have h1 : (j 1).val < 2048 := (j 1).isLt
  rw [val_main_v17_apply, val_main_v16_apply, val_main_v13_apply, val_main_v10_apply, val_main_v9_apply, val_main_v12_apply,
    val_main_v11_apply, val_main_v15_apply, val_main_v14_apply]
  have e0 : idx_main_v9 (idx_main_v17 j) = ix2 (j 0) (j 1) := funext fun a => Fin.ext (by
    match a with
    | ⟨0, _⟩ => exact pos_row_a _ _ h1
    | ⟨1, _⟩ => exact pos_col_a _ _ h1)
  have e1 : idx_main_v11 (idx_main_v12 (idx_main_v17 j)) = ix2 (j 0) (grp c2048 (j 1)) := funext fun a => Fin.ext (by
    match a with
    | ⟨0, _⟩ => exact row_a _ _ h1
    | ⟨1, _⟩ => exact grp_a _ _ h1)
  have e2 : idx_main_v14 (idx_main_v15 (idx_main_v17 j)) = ix2 (j 0) (grp c2048 (j 1)) := funext fun a => Fin.ext (by
    match a with
    | ⟨0, _⟩ => exact row_a _ _ h1
    | ⟨1, _⟩ => exact grp_a _ _ h1)
  rw [e0, e1, e2]
  rfl

/-- The down weight as the reference builds it, read at (r, k). -/
theorem down_weight (x7 : (⟨S2048x5632, .i32⟩ : BufTy).Contents (Elt Ideal)) (x8 x9 : (⟨S2048x88, .f32⟩ : BufTy).Contents (Elt Ideal))
    (j : S2048x5632.Idx) : val_main_v26 (F := Ideal) x7 x8 x9 j = deq c5632 x7 x8 x9 (j 0) (j 1) := by
  have h1 : (j 1).val < 5632 := (j 1).isLt
  rw [val_main_v26_apply, val_main_v25_apply, val_main_v22_apply, val_main_v19_apply, val_main_v18_apply, val_main_v21_apply,
    val_main_v20_apply, val_main_v24_apply, val_main_v23_apply]
  have e0 : idx_main_v18 (idx_main_v26 j) = ix2 (j 0) (j 1) := funext fun a => Fin.ext (by
    match a with
    | ⟨0, _⟩ => exact pos_row_b _ _ h1
    | ⟨1, _⟩ => exact pos_col_b _ _ h1)
  have e1 : idx_main_v20 (idx_main_v21 (idx_main_v26 j)) = ix2 (j 0) (grp c5632 (j 1)) := funext fun a => Fin.ext (by
    match a with
    | ⟨0, _⟩ => exact row_b _ _ h1
    | ⟨1, _⟩ => exact grp_b _ _ h1)
  have e2 : idx_main_v23 (idx_main_v24 (idx_main_v26 j)) = ix2 (j 0) (grp c5632 (j 1)) := funext fun a => Fin.ext (by
    match a with
    | ⟨0, _⟩ => exact row_b _ _ h1
    | ⟨1, _⟩ => exact grp_b _ _ h1)
  rw [e0, e1, e2]
  rfl

/-! ## The two projections, the gate and the output -/

/-- x·Wgateᵀ at (p, n). -/
theorem gate_proj (x0 : (⟨S32x2048, .f32⟩ : BufTy).Contents (Elt Ideal)) (x1 : (⟨S5632x2048, .i32⟩ : BufTy).Contents (Elt Ideal))
    (x2 x3 : (⟨S5632x32, .f32⟩ : BufTy).Contents (Elt Ideal)) (i : S32x5632.Idx) :
    val_main_v28 (F := Ideal) x0 x1 x2 x3 i = proj c2048 x0 x1 x2 x3 (i 0) (i 1) := by
  rw [val_main_v28_apply]
  unfold proj
  refine Finset.sum_congr rfl fun k _ => ?_
  rw [val_main_v27_apply, gate_weight]
  have el : lidx_main_v28 i k = ix2 (i 0) k := funext fun a => Fin.ext (by
    match a with
    | ⟨0, _⟩ => rfl
    | ⟨1, _⟩ => rfl)
  rw [el]
  rfl

/-- x·Wupᵀ at (p, n). -/
theorem up_proj (x0 : (⟨S32x2048, .f32⟩ : BufTy).Contents (Elt Ideal)) (x4 : (⟨S5632x2048, .i32⟩ : BufTy).Contents (Elt Ideal))
    (x5 x6 : (⟨S5632x32, .f32⟩ : BufTy).Contents (Elt Ideal)) (i : S32x5632.Idx) :
    val_main_v31 (F := Ideal) x0 x4 x5 x6 i = proj c2048 x0 x4 x5 x6 (i 0) (i 1) := by
  rw [val_main_v31_apply]
  unfold proj
  refine Finset.sum_congr rfl fun k _ => ?_
  rw [val_main_v30_apply, up_weight]
  have el : lidx_main_v31 i k = ix2 (i 0) k := funext fun a => Fin.ext (by
    match a with
    | ⟨0, _⟩ => rfl
    | ⟨1, _⟩ => rfl)
  rw [el]
  rfl

/-- The float word 0x3F800000 is the number one. -/
theorem one_f32 : Ideal.ofBits .f32 0x3F800000#32 = 1 := by simp [Ideal.ofBits, Ideal.ieee, -EReal.coe_mul]; norm_num

/-- The reference's gated hidden value at (p, n). -/
theorem hidden_eq (x0 : (⟨S32x2048, .f32⟩ : BufTy).Contents (Elt Ideal)) (x1 : (⟨S5632x2048, .i32⟩ : BufTy).Contents (Elt Ideal))
    (x2 x3 : (⟨S5632x32, .f32⟩ : BufTy).Contents (Elt Ideal)) (x4 : (⟨S5632x2048, .i32⟩ : BufTy).Contents (Elt Ideal))
    (x5 x6 : (⟨S5632x32, .f32⟩ : BufTy).Contents (Elt Ideal)) (i : S32x5632.Idx) :
    val_main_v32 (F := Ideal) x0 x1 x2 x3 x4 x5 x6 i = hiddenArr x0 x1 x2 x3 x4 x5 x6 i := by
  rw [val_main_v32_apply, val_main_v29_apply, val_main_call0_v5_apply, val_main_call0_v4_apply, val_main_call0_cst_0_apply,
    val_main_call0_v3_apply, val_main_call0_v2_apply, val_main_call0_cst_apply, val_main_call0_v1_apply,
    val_main_call0_v0_apply, gate_proj, up_proj]
  simp only [Ideal.ofBits_def, one_f32]
  rfl

/-- The reference's result is the specification's output array. -/
theorem result_eq (x0 : (⟨S32x2048, .f32⟩ : BufTy).Contents (Elt Ideal)) (x1 : (⟨S5632x2048, .i32⟩ : BufTy).Contents (Elt Ideal))
    (x2 x3 : (⟨S5632x32, .f32⟩ : BufTy).Contents (Elt Ideal)) (x4 : (⟨S5632x2048, .i32⟩ : BufTy).Contents (Elt Ideal))
    (x5 x6 : (⟨S5632x32, .f32⟩ : BufTy).Contents (Elt Ideal)) (x7 : (⟨S2048x5632, .i32⟩ : BufTy).Contents (Elt Ideal))
    (x8 x9 : (⟨S2048x88, .f32⟩ : BufTy).Contents (Elt Ideal)) :
    val_main_v34 (F := Ideal) x0 x1 x2 x3 x4 x5 x6 x7 x8 x9 = outArr (hiddenArr x0 x1 x2 x3 x4 x5 x6) x7 x8 x9 := by
  funext i
  rw [val_main_v34_apply]
  unfold outArr proj
  refine Finset.sum_congr rfl fun k _ => ?_
  rw [hidden_eq, val_main_v33_apply, down_weight]
  have el : lidx_main_v34 i k = ix2 (i 0) k := funext fun a => Fin.ext (by
    match a with
    | ⟨0, _⟩ => rfl
    | ⟨1, _⟩ => rfl)
  rw [el]
  rfl

end Cert.QuantMlp.Ref

end
-- ==== Proof.KernelRun.lean ====
/-
  The kernel program's run with its result array named.

  The program is two regions one after the other. After the second region the output array's buffer holds what
  the second pipeline's write-backs leave, and the arguments hold what they were launched with. This is the launch
  of the two regions with the final memory read at the output array as well as at the arguments.
-/
import proofs.«121343_j16587163697466_2_alg».proof.Proof.Gen.KernelIdeal.Frame

set_option maxRecDepth 16384

noncomputable section

namespace Cert.QuantMlp.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the output array ends at the contents
    the second region leaves in it, and every argument as launched. -/
theorem run_named : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       (h c _ (mem_uc main_arg5 (by decide))).trans (W2_main_arg5 m ρ c),
       (h c _ (mem_uc main_arg6 (by decide))).trans (W2_main_arg6 m ρ c),
       (h c _ (mem_uc main_arg7 (by decide))).trans (W2_main_arg7 m ρ c),
       (h c _ (mem_uc main_arg8 (by decide))).trans (W2_main_arg8 m ρ c),
       (h c _ (mem_uc main_arg9 (by decide))).trans (W2_main_arg9 m ρ c)⟩)

end Cert.QuantMlp.Run

end
-- ==== Proof.Tile.lean ====
/-
  A tile of codes dequantized by the body's operations, read at one entry.

  The body views the [R, C] tile as [R, G, 64] (C = 64·G: row r, column k sits at group k/64, lane k%64), views the
  [R, G] scales and zero points as [R, G, 1] and repeats them along the lanes, subtracts, multiplies, and views
  the result as [R, C] again. Read at (r, k) that is (code(r,k) − zero(r, k/64)) · scale(r, k/64).
-/
import Idealize.ShloMosaic.Lib.Pipeline.Value
import Idealize.ShloMosaic.Lib.ValueIdx
import proofs.«121343_j16587163697466_2_alg».proof.Proof.Spec

noncomputable section

namespace Cert.QuantMlp

open Idealize.ShloMosaic Idealize.ShloMosaic.ValueIdx

/-- Row-major position of (r, k/64, k%64) in [R, G, 64] is that of (r, k) in [R, 64·G]. -/
theorem pos_split (r G k : Nat) : (r * G + k / 64) * 64 + k % 64 = r * (G * 64) + k := by
  have h := Nat.div_add_mod k 64
  nlinarith [h]

/-- The dequantized tile at entry (r, k). -/
theorem dequant_apply {R C G : Nat} (hC : C = G * 64) (hR : R ≠ 1) (hG : G ≠ 1)
    (x1 : (⟨2, ![R, C]⟩ : Shape).Idx → BitVec 32) (x2 x3 : (⟨2, ![R, G]⟩ : Shape).Idx → EReal)
    (h1 : (⟨2, ![R, C]⟩ : Shape).ShapeCasts ⟨3, ![R, G, 64]⟩)
    (h2 : (⟨2, ![R, G]⟩ : Shape).ShapeCasts ⟨3, ![R, G, 1]⟩)
    (h3 : (⟨3, ![R, G, 1]⟩ : Shape).Broadcasts ⟨3, ![R, G, 64]⟩)
    (h4 : (⟨3, ![R, G, 64]⟩ : Shape).ShapeCasts ⟨2, ![R, C]⟩) (r : Fin R) (k : Fin C) :
    shapeCast (⟨2, ![R, C]⟩ : Shape)
      (mulf (F := Ideal) (φ := .f32)
        (subf (F := Ideal) (φ := .f32) (shapeCast (⟨3, ![R, G, 64]⟩ : Shape) (sitofp (F := Ideal) .f32 x1) h1)
          (broadcastTo (⟨3, ![R, G, 64]⟩ : Shape) (shapeCast (⟨3, ![R, G, 1]⟩ : Shape) x3 h2) h3))
        (broadcastTo (⟨3, ![R, G, 64]⟩ : Shape) (shapeCast (⟨3, ![R, G, 1]⟩ : Shape) x2 h2) h3)) h4 (ix2 r k)
      = deq hC x1 x2 x3 r k := by
  have hk : k.val < G * 64 := hC ▸ k.isLt
  let g : Fin G := grp hC k
  let l : Fin 64 := ⟨k.val % 64, Nat.mod_lt _ (by decide)⟩
  let z1 : Fin 1 := ⟨0, Nat.one_pos⟩
  have hpos : ((⟨3, ![R, G, 64]⟩ : Shape).rowMajor (ix3 r g l)).val = ((⟨2, ![R, C]⟩ : Shape).rowMajor (ix2 r k)).val := by
    rw [Shape.rowMajor_val_three, Shape.rowMajor_val_two]
    show (r.val * G + k.val / 64) * 64 + k.val % 64 = r.val * C + k.val
    have h := pos_split r.val G k.val
    rw [← hC] at h
    exact h
  have hcol : ((⟨2, ![R, G]⟩ : Shape).rowMajor (ix2 r g)).val = ((⟨3, ![R, G, 1]⟩ : Shape).rowMajor (ix3 r g z1)).val := by
    rw [Shape.rowMajor_val_three, Shape.rowMajor_val_two]
    show r.val * G + k.val / 64 = (r.val * G + k.val / 64) * 1 + 0
    omega
  have eb : ∀ y : (⟨3, ![R, G, 1]⟩ : Shape).Idx → EReal,
      broadcastTo (⟨3, ![R, G, 64]⟩ : Shape) y h3 (ix3 r g l) = y (ix3 r g z1) := fun y =>
    broadcastTo_apply y h3 (ix3 r g l) (ix3 r g z1) (fun a => match a with
      | ⟨0, _⟩ => by show r.val = if R = 1 then 0 else r.val; rw [if_neg hR]
      | ⟨1, _⟩ => by show k.val / 64 = if G = 1 then 0 else k.val / 64; rw [if_neg hG]
      | ⟨2, _⟩ => by show 0 = if (1 : Nat) = 1 then 0 else k.val % 64; rw [if_pos rfl])
  refine (shapeCast_apply _ h4 (ix2 r k) (ix3 r g l) hpos).trans ?_
  show (shapeCast (⟨3, ![R, G, 64]⟩ : Shape) (sitofp (F := Ideal) .f32 x1) h1 (ix3 r g l)
      - broadcastTo (⟨3, ![R, G, 64]⟩ : Shape) (shapeCast (⟨3, ![R, G, 1]⟩ : Shape) x3 h2) h3 (ix3 r g l))
      * broadcastTo (⟨3, ![R, G, 64]⟩ : Shape) (shapeCast (⟨3, ![R, G, 1]⟩ : Shape) x2 h2) h3 (ix3 r g l) = _
  rw [shapeCast_apply (sitofp (F := Ideal) .f32 x1) h1 (ix3 r g l) (ix2 r k) hpos.symm,
    eb, eb,
    shapeCast_apply x3 h2 (ix3 r g z1) (ix2 r g) hcol, shapeCast_apply x2 h2 (ix3 r g z1) (ix2 r g) hcol]
  rfl

end Cert.QuantMlp

end
-- ==== Proof.GateUpBlock.lean ====
/-
  What the first kernel's body stores, entry by entry.

  At one grid point the body holds the activations x [32, 2048] and a block of 512 rows of the gate and up
  weights. It dequantizes both blocks, forms g = x·Wgᵀ and u = x·Wuᵀ on the matrix unit (a sum over the 2048
  columns, from a zero accumulator), and stores g·σ(g)·u. So entry (p, q) of the stored [32, 512] block is the
  gated hidden value of row p of x against row q of the two weight blocks.
-/
import proofs.«121343_j16587163697466_2_alg».proof.Proof.Gen.KernelIdeal.Skeleton
import proofs.«121343_j16587163697466_2_alg».proof.Proof.Tile
import Idealize.ShloMosaic.PureOps.Ideal.Laws

noncomputable section

namespace Cert.QuantMlp.GateUp

open Cert.KernelIdeal Cert.KernelIdeal.Gen Cert.QuantMlp
open Idealize.ShloMosaic Idealize.ShloMosaic.ValueIdx

/-- The contraction of the body's two matrix products: x [32, 2048] against a weight block [512, 2048], both on their last axis. -/
abbrev D : DotDims S32x2048 S512x2048 S32x512 := dot_S32x2048_S512x2048_S32x512_1_1_0_0_n_n

theorem lhs_row (i : S32x512.Idx) (q : D.contr.Idx) : (D.lhsIdx i q 0).val = (i 0).val := by
  unfold DotDims.lhsIdx
  rw [dif_neg (show ¬(0 : Fin S32x2048.rank) ∈ D.lhsBatch by decide), dif_pos (show (0 : Fin S32x2048.rank) ∈ D.lhsNonContracting by decide)]
  rfl
theorem lhs_col (i : S32x512.Idx) (q : D.contr.Idx) : (D.lhsIdx i q 1).val = (q ⟨0, by decide⟩).val :=
  D.lhsIdx_val_of_single rfl i q
theorem rhs_row (i : S32x512.Idx) (q : D.contr.Idx) : (D.rhsIdx i q 0).val = (i 1).val := by
  unfold DotDims.rhsIdx
  rw [dif_neg (show ¬(0 : Fin S512x2048.rank) ∈ D.rhsBatch by decide), dif_pos (show (0 : Fin S512x2048.rank) ∈ D.rhsNonContracting by decide)]
  rfl
theorem rhs_col (i : S32x512.Idx) (q : D.contr.Idx) : (D.rhsIdx i q 1).val = (q ⟨0, by decide⟩).val :=
  D.rhsIdx_val_of_single rfl i q

/-- The matrix unit's product from a zero accumulator, at (p, q): Σₖ x(p,k)·w(q,k). -/
theorem matmul_entry (x : FVec Ideal S32x2048 .bf16) (w : FVec Ideal S512x2048 .bf16) (p : Fin 32) (q : Fin 512) :
    matmul D none x w (constant (F := Ideal) S32x512 .f32 0x00000000#32) (ix2 p q)
      = ∑ k : Fin 2048, x (ix2 p k) * w (ix2 q k) := by
  show FloatOps.matmul D none x w (constant (F := Ideal) S32x512 .f32 0x00000000#32) (ix2 p q) = _
  rw [Ideal.matmul_constant_zero_apply, ← Equiv.sum_comp (contrEquiv1 D 2048 rfl rfl).symm]
  refine Finset.sum_congr rfl fun k _ => ?_
  have hk := contrEquiv1_symm_val D 2048 rfl rfl k
  have el : D.lhsIdx (ix2 p q) ((contrEquiv1 D 2048 rfl rfl).symm k) = ix2 p k := funext fun a => Fin.ext (by
    match a with
    | ⟨0, _⟩ => exact lhs_row _ _
    | ⟨1, _⟩ => exact (lhs_col _ _).trans hk)
  have er : D.rhsIdx (ix2 p q) ((contrEquiv1 D 2048 rfl rfl).symm k) = ix2 q k := funext fun a => Fin.ext (by
    match a with
    | ⟨0, _⟩ => exact rhs_row _ _
    | ⟨1, _⟩ => exact (rhs_col _ _).trans hk)
  rw [el, er]

/-- A [512, 2048] block of codes dequantized by the body's operations (scales x2, zero points x3). -/
def tile (x1 : Vec Ideal S512x2048 .i32) (x2 x3 : Vec Ideal S512x32 .f32) : FVec Ideal S512x2048 .bf16 :=
  truncf .bf16 (shapeCast S512x2048 (mulf (subf (shapeCast S512x32x64 (sitofp .f32 x1) shapeCasts_S512x2048_S512x32x64)
      (broadcastTo S512x32x64 (shapeCast S512x32x1 x3 shapeCasts_S512x32_S512x32x1) broadcasts_S512x32x1_S512x32x64))
    (broadcastTo S512x32x64 (shapeCast S512x32x1 x2 shapeCasts_S512x32_S512x32x1) broadcasts_S512x32x1_S512x32x64))
    shapeCasts_S512x32x64_S512x2048) bitsLt_bf16_f32

theorem tile_entry (x1 : Vec Ideal S512x2048 .i32) (x2 x3 : Vec Ideal S512x32 .f32) (q : Fin 512) (k : Fin 2048) :
    tile x1 x2 x3 (ix2 q k) = deq c2048 x1 x2 x3 q k :=
  dequant_apply c2048 (by decide) (by decide) x1 x2 x3 _ _ _ _ q k

/-- The body's stored value is g·σ(g)·u of the two products. -/
theorem payload_eq (x0 : Vec Ideal S32x2048 .f32) (x1 : Vec Ideal S512x2048 .i32) (x2 x3 : Vec Ideal S512x32 .f32)
    (x4 : Vec Ideal S512x2048 .i32) (x5 x6 : Vec Ideal S512x32 .f32) :
    k0_pay1 (F := Ideal) x0 x1 x2 x3 x4 x5 x6
      = truncf .bf16 (mulf (mulf
          (matmul D none (truncf .bf16 x0 bitsLt_bf16_f32) (tile x1 x2 x3) (constant (F := Ideal) S32x512 .f32 0x00000000#32))
          (logistic (matmul D none (truncf .bf16 x0 bitsLt_bf16_f32) (tile x1 x2 x3) (constant (F := Ideal) S32x512 .f32 0x00000000#32))))
          (matmul D none (truncf .bf16 x0 bitsLt_bf16_f32) (tile x4 x5 x6) (constant (F := Ideal) S32x512 .f32 0x00000000#32)))
        bitsLt_bf16_f32 := rfl

/-- Entry (p, q) of the stored block: the gated hidden value of row p of x against row q of the weight blocks. -/
theorem payload_entry (x0 : Vec Ideal S32x2048 .f32) (x1 : Vec Ideal S512x2048 .i32) (x2 x3 : Vec Ideal S512x32 .f32)
    (x4 : Vec Ideal S512x2048 .i32) (x5 x6 : Vec Ideal S512x32 .f32) (p : Fin 32) (q : Fin 512) :
    k0_pay1 (F := Ideal) x0 x1 x2 x3 x4 x5 x6 (ix2 p q) = hidden c2048 x0 x1 x2 x3 x4 x5 x6 p q := by
  rw [payload_eq]
  show (matmul D none (truncf .bf16 x0 bitsLt_bf16_f32) (tile x1 x2 x3) (constant (F := Ideal) S32x512 .f32 0x00000000#32) (ix2 p q)
      * Ideal.logistic (matmul D none (truncf .bf16 x0 bitsLt_bf16_f32) (tile x1 x2 x3) (constant (F := Ideal) S32x512 .f32 0x00000000#32) (ix2 p q)))
      * matmul D none (truncf .bf16 x0 bitsLt_bf16_f32) (tile x4 x5 x6) (constant (F := Ideal) S32x512 .f32 0x00000000#32) (ix2 p q) = _
  rw [matmul_entry, matmul_entry]
  unfold hidden proj
  simp only [tile_entry]
  rfl

end Cert.QuantMlp.GateUp

end
-- ==== Proof.HiddenArray.lean ====
/-
  The first kernel's output array, from its blocks.

  Grid point t (0 ≤ t < 11) sees all of x and rows 512t … 512t+511 of the gate and up codes, scales and zero
  points, and writes columns 512t … 512t+511 of the hidden layer [32, 5632]. What it writes at (p, q) is the gated
  hidden value of row p of x against row 512t+q of the weights, which is the specification's hidden layer at
  (p, 512t+q). The eleven column strips cover the array, so after the region the array is the hidden layer.
-/
import proofs.«121343_j16587163697466_2_alg».proof.Proof.Gen.KernelIdeal.Frame
import proofs.«121343_j16587163697466_2_alg».proof.Proof.GateUpBlock
import Idealize.ShloMosaic.Lib.Pipeline.Value

set_option maxRecDepth 16384

noncomputable section

namespace Cert.QuantMlp.GateUp

open Cert.KernelIdeal Cert.KernelIdeal.Gen Cert.QuantMlp
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: x stays at block (0,0); the six weight operands are at row block t; the
    output is at column block t. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = 0 ∧ win0_7.index t (1 : Fin 2) = t.val :=
  (by decide +kernel : ∀ t : Fin grid0.N, _)

theorem lt_N (t : Fin cfg0.N) : t.val < 11 := by
  have h := t.isLt
  have e : cfg0.N = 11 := N_0
  omega

/-- Row q of point t's weight block is row 512t+q of the weight. -/
def wrow (t : Fin cfg0.N) (q : Fin 512) : Fin 5632 := ⟨t.val * 512 + q.val, by have := lt_N t; have := q.isLt; omega⟩

/-! ## The input blocks as rows of their arrays -/

theorem x_block (c : Dev nD) (t : Fin cfg0.N) (p : Fin 32) (k : Fin 2048) :
    (iblk0 V c 0 t : Vec Ideal S32x2048 .f32) (ix2 p k) = (V c main_arg0 : S32x2048.Idx → EReal) (ix2 p k) := by
  obtain ⟨e0, e1, -⟩ := idx_facts t
  unfold iblk0
  rw [View.read_apply]
  show V c main_arg0 _ = V c main_arg0 _
  refine congrArg _ (funext fun a => Fin.ext ?_)
  match a with
  | ⟨0, _⟩ => show win0_0.index t (0 : Fin 2) * 32 + 1 * p.val = p.val; rw [e0]; omega
  | ⟨1, _⟩ => show win0_0.index t (1 : Fin 2) * 2048 + 1 * k.val = k.val; rw [e1]; omega

theorem gq_block (c : Dev nD) (t : Fin cfg0.N) (q : Fin 512) (k : Fin 2048) :
    (iblk0 V c 1 t : Vec Ideal S512x2048 .i32) (ix2 q k) = (V c main_arg1 : S5632x2048.Idx → BitVec 32) (ix2 (wrow t q) k) := by
  obtain ⟨-, -, e0, e1, -⟩ := idx_facts t
  unfold iblk0
  rw [View.read_apply]
  show V c main_arg1 _ = V c main_arg1 _
  refine congrArg _ (funext fun a => Fin.ext ?_)
  match a with
  | ⟨0, _⟩ => show win0_1.index t (0 : Fin 2) * 512 + 1 * q.val = t.val * 512 + q.val; rw [e0]; omega
  | ⟨1, _⟩ => show win0_1.index t (1 : Fin 2) * 2048 + 1 * k.val = k.val; rw [e1]; omega

theorem gs_block (c : Dev nD) (t : Fin cfg0.N) (q : Fin 512) (g : Fin 32) :
    (iblk0 V c 2 t : Vec Ideal S512x32 .f32) (ix2 q g) = (V c main_arg2 : S5632x32.Idx → EReal) (ix2 (wrow t q) g) := by
  obtain ⟨-, -, -, -, e0, e1, -⟩ := idx_facts t
  unfold iblk0
  rw [View.read_apply]
  show V c main_arg2 _ = V c main_arg2 _
  refine congrArg _ (funext fun a => Fin.ext ?_)
  match a with
  | ⟨0, _⟩ => show win0_2.index t (0 : Fin 2) * 512 + 1 * q.val = t.val * 512 + q.val; rw [e0]; omega
  | ⟨1, _⟩ => show win0_2.index t (1 : Fin 2) * 32 + 1 * g.val = g.val; rw [e1]; omega

theorem gz_block (c : Dev nD) (t : Fin cfg0.N) (q : Fin 512) (g : Fin 32) :
    (iblk0 V c 3 t : Vec Ideal S512x32 .f32) (ix2 q g) = (V c main_arg3 : S5632x32.Idx → EReal) (ix2 (wrow t q) g) := by
  obtain ⟨-, -, -, -, -, -, e0, e1, -⟩ := idx_facts t
  unfold iblk0
  rw [View.read_apply]
  show V c main_arg3 _ = V c main_arg3 _
  refine congrArg _ (funext fun a => Fin.ext ?_)
  match a with
  | ⟨0, _⟩ => show win0_3.index t (0 : Fin 2) * 512 + 1 * q.val = t.val * 512 + q.val; rw [e0]; omega
  | ⟨1, _⟩ => show win0_3.index t (1 : Fin 2) * 32 + 1 * g.val = g.val; rw [e1]; omega

theorem uq_block (c : Dev nD) (t : Fin cfg0.N) (q : Fin 512) (k : Fin 2048) :
    (iblk0 V c 4 t : Vec Ideal S512x2048 .i32) (ix2 q k) = (V c main_arg4 : S5632x2048.Idx → BitVec 32) (ix2 (wrow t q) k) := by
  obtain ⟨-, -, -, -, -, -, -, -, e0, e1, -⟩ := idx_facts t
  unfold iblk0
  rw [View.read_apply]
  show V c main_arg4 _ = V c main_arg4 _
  refine congrArg _ (funext fun a => Fin.ext ?_)
  match a with
  | ⟨0, _⟩ => show win0_4.index t (0 : Fin 2) * 512 + 1 * q.val = t.val * 512 + q.val; rw [e0]; omega
  | ⟨1, _⟩ => show win0_4.index t (1 : Fin 2) * 2048 + 1 * k.val = k.val; rw [e1]; omega

theorem us_block (c : Dev nD) (t : Fin cfg0.N) (q : Fin 512) (g : Fin 32) :
    (iblk0 V c 5 t : Vec Ideal S512x32 .f32) (ix2 q g) = (V c main_arg5 : S5632x32.Idx → EReal) (ix2 (wrow t q) g) := by
  obtain ⟨-, -, -, -, -, -, -, -, -, -, e0, e1, -⟩ := idx_facts t
  unfold iblk0
  rw [View.read_apply]
  show V c main_arg5 _ = V c main_arg5 _
  refine congrArg _ (funext fun a => Fin.ext ?_)
  match a with
  | ⟨0, _⟩ => show win0_5.index t (0 : Fin 2) * 512 + 1 * q.val = t.val * 512 + q.val; rw [e0]; omega
  | ⟨1, _⟩ => show win0_5.index t (1 : Fin 2) * 32 + 1 * g.val = g.val; rw [e1]; omega

theorem uz_block (c : Dev nD) (t : Fin cfg0.N) (q : Fin 512) (g : Fin 32) :
    (iblk0 V c 6 t : Vec Ideal S512x32 .f32) (ix2 q g) = (V c main_arg6 : S5632x32.Idx → EReal) (ix2 (wrow t q) g) := by
  obtain ⟨-, -, -, -, -, -, -, -, -, -, -, -, e0, e1, -⟩ := idx_facts t
  unfold iblk0
  rw [View.read_apply]
  show V c main_arg6 _ = V c main_arg6 _
  refine congrArg _ (funext fun a => Fin.ext ?_)
  match a with
  | ⟨0, _⟩ => show win0_6.index t (0 : Fin 2) * 512 + 1 * q.val = t.val * 512 + q.val; rw [e0]; omega
  | ⟨1, _⟩ => show win0_6.index t (1 : Fin 2) * 32 + 1 * g.val = g.val; rw [e1]; omega

/-! ## One block of the hidden layer -/

/-- The gated hidden value of x against a block of weight rows that are rows of the whole weights, is the whole
    problem's hidden value at those rows. -/
theorem hidden_of_rows (x0 : Vec Ideal S32x2048 .f32) (x1 : Vec Ideal S512x2048 .i32) (x2 x3 : Vec Ideal S512x32 .f32)
    (x4 : Vec Ideal S512x2048 .i32) (x5 x6 : Vec Ideal S512x32 .f32)
    (A0 : S32x2048.Idx → EReal) (A1 : S5632x2048.Idx → BitVec 32) (A2 A3 : S5632x32.Idx → EReal)
    (A4 : S5632x2048.Idx → BitVec 32) (A5 A6 : S5632x32.Idx → EReal) (p : Fin 32) (q : Fin 512) (n : Fin 5632)
    (h0 : ∀ k : Fin 2048, x0 (ix2 p k) = A0 (ix2 p k))
    (h1 : ∀ k : Fin 2048, x1 (ix2 q k) = A1 (ix2 n k)) (h2 : ∀ g : Fin 32, x2 (ix2 q g) = A2 (ix2 n g))
    (h3 : ∀ g : Fin 32, x3 (ix2 q g) = A3 (ix2 n g))
    (h4 : ∀ k : Fin 2048, x4 (ix2 q k) = A4 (ix2 n k)) (h5 : ∀ g : Fin 32, x5 (ix2 q g) = A5 (ix2 n g))
    (h6 : ∀ g : Fin 32, x6 (ix2 q g) = A6 (ix2 n g)) :
    hidden c2048 x0 x1 x2 x3 x4 x5 x6 p q = hidden c2048 A0 A1 A2 A3 A4 A5 A6 p n := by
  unfold hidden proj deq
  simp only [h0, h1, h2, h3, h4, h5, h6]

/-- WHAT POINT t WRITES BACK is block t of the hidden layer of the arrays as the region finds them. -/
theorem flushed_eq (c : Dev nD) (t : Fin cfg0.N) :
    (dat0 (F := Ideal) V c).flushed 7 t = ((cfg0.win 7).blk t).view.read (Elt Ideal)
      (hiddenArr (V c main_arg0) (V c main_arg1) (V c main_arg2) (V c main_arg3) (V c main_arg4) (V c main_arg5) (V c main_arg6)) := by
  show (cfg0.win 7).cut (grid0.coords t) ((dat0 (F := Ideal) V c).after 7 t) = _
  rw [after0_7]
  unfold out0_7
  rw [View.canon_unit_zero hz]
  simp only [View.ld_unit_zero (S := S32x2048) hz, View.ld_unit_zero (S := S512x2048) hz, View.ld_unit_zero (S := S512x32) hz]
  funext y
  obtain ⟨p, q, rfl⟩ : ∃ (p : Fin 32) (q : Fin 512), y = ix2 p q := ⟨y 0, y 1, eq_ix2 y⟩
  obtain ⟨-, -, -, -, -, -, -, -, -, -, -, -, -, -, e0, e1⟩ := idx_facts t
  show k0_pay1 (F := Ideal) (iblk0 V c 0 t) (iblk0 V c 1 t) (iblk0 V c 2 t) (iblk0 V c 3 t) (iblk0 V c 4 t) (iblk0 V c 5 t) (iblk0 V c 6 t) (ix2 p q)
    = hiddenArr (V c main_arg0) (V c main_arg1) (V c main_arg2) (V c main_arg3) (V c main_arg4) (V c main_arg5) (V c main_arg6)
        (((cfg0.win 7).blk t).view.emb (ix2 p q))
  have hemb : ((cfg0.win 7).blk t).view.emb (ix2 p q) = (ix2 p (wrow t q) : S32x5632.Idx) := funext fun a => Fin.ext (by
    match a with
    | ⟨0, _⟩ => show win0_7.index t (0 : Fin 2) * 32 + 1 * p.val = p.val; rw [e0]; omega
    | ⟨1, _⟩ => show win0_7.index t (1 : Fin 2) * 512 + 1 * q.val = t.val * 512 + q.val; rw [e1]; omega)
  rw [hemb, payload_entry]
  exact hidden_of_rows _ _ _ _ _ _ _ _ _ _ _ _ _ _ p q (wrow t q)
    (fun k => x_block V c t p k) (fun k => gq_block V c t q k) (fun g => gs_block V c t q g) (fun g => gz_block V c t q g)
    (fun k => uq_block V c t q k) (fun g => us_block V c t q g) (fun g => uz_block V c t q g)

/-- An index of the hidden array is in point t's block iff each coordinate is in the block's range on its axis. -/
theorem mem_blk (t : Fin cfg0.N) (i : S32x5632.Idx) :
    i ∈ ((cfg0.win 7).blk t).view.set ↔ ∀ a : Fin 2, win0_7.index t a * S32x512.size a ≤ (i a).val ∧ (i a).val < win0_7.index t a * S32x512.size a + S32x512.size a := by
  show i ∈ ((View.whole main_v0).slice (win0_7.rect t)).set ↔ _
  rw [View.set_slice_whole, Rect.mem_set_unit]
  exact Iff.rfl

/-- Every index of the hidden array is in the block of the point its column strip belongs to. -/
theorem cover (i : S32x5632.Idx) : ∃ t : Fin cfg0.N, (cfg0.win 7).flush t = true ∧ i ∈ ((cfg0.win 7).blk t).view.set := by
  have hi0 : (i 0).val < 32 := (i 0).isLt
  have hi1 : (i 1).val < 5632 := (i 1).isLt
  let t : Fin cfg0.N := ⟨(i 1).val / 512, by rw [show cfg0.N = 11 from N_0]; omega⟩
  obtain ⟨-, -, -, -, -, -, -, -, -, -, -, -, -, -, e0, e1⟩ := idx_facts t
  refine ⟨t, flush0_7 t, ?_⟩
  rw [mem_blk]
  intro a
  match a with
  | ⟨0, _⟩ => show win0_7.index t (0 : Fin 2) * 32 ≤ (i 0).val ∧ (i 0).val < win0_7.index t (0 : Fin 2) * 32 + 32; rw [e0]; omega
  | ⟨1, _⟩ =>
    show win0_7.index t (1 : Fin 2) * 512 ≤ (i 1).val ∧ (i 1).val < win0_7.index t (1 : Fin 2) * 512 + 512
    rw [e1]
    show (i 1).val / 512 * 512 ≤ (i 1).val ∧ (i 1).val < (i 1).val / 512 * 512 + 512
    omega

/-- THE HIDDEN ARRAY after the region: the specification's hidden layer of the arrays as the region finds them. -/
theorem final (c : Dev nD) : (dat0 (F := Ideal) V c).arrAt 7 cfg0.N
    = hiddenArr (V c main_arg0) (V c main_arg1) (V c main_arg2) (V c main_arg3) (V c main_arg4) (V c main_arg5) (V c main_arg6) :=
  (dat0 (F := Ideal) V c).arrAt_eq_of_cover 7 _ (fun t _ => flushed_eq V c t) cover

end Cert.QuantMlp.GateUp

end
-- ==== Proof.DownBlock.lean ====
/-
  What the second kernel's body stores, entry by entry.

  At one grid point the body holds the whole hidden layer h [32, 5632] and a block of 256 rows of the down
  weight. It dequantizes the block and forms h·Wdᵀ on the matrix unit (a sum over the 5632 columns, from a zero
  accumulator). So entry (p, q) of the stored [32, 256] block is row p of h against row q of the weight block.
-/
import proofs.«121343_j16587163697466_2_alg».proof.Proof.Gen.KernelIdeal.Skeleton
import proofs.«121343_j16587163697466_2_alg».proof.Proof.Tile
import Idealize.ShloMosaic.PureOps.Ideal.Laws

noncomputable section

namespace Cert.QuantMlp.Down

open Cert.KernelIdeal Cert.KernelIdeal.Gen Cert.QuantMlp
open Idealize.ShloMosaic Idealize.ShloMosaic.ValueIdx

/-- The contraction of the body's matrix product: h [32, 5632] against a weight block [256, 5632], both on their last axis. -/
abbrev D : DotDims S32x5632 S256x5632 S32x256 := dot_S32x5632_S256x5632_S32x256_1_1_0_0_n_n

theorem lhs_row (i : S32x256.Idx) (q : D.contr.Idx) : (D.lhsIdx i q 0).val = (i 0).val := by
  unfold DotDims.lhsIdx
  rw [dif_neg (show ¬(0 : Fin S32x5632.rank) ∈ D.lhsBatch by decide), dif_pos (show (0 : Fin S32x5632.rank) ∈ D.lhsNonContracting by decide)]
  rfl
theorem lhs_col (i : S32x256.Idx) (q : D.contr.Idx) : (D.lhsIdx i q 1).val = (q ⟨0, by decide⟩).val :=
  D.lhsIdx_val_of_single rfl i q
theorem rhs_row (i : S32x256.Idx) (q : D.contr.Idx) : (D.rhsIdx i q 0).val = (i 1).val := by
  unfold DotDims.rhsIdx
  rw [dif_neg (show ¬(0 : Fin S256x5632.rank) ∈ D.rhsBatch by decide), dif_pos (show (0 : Fin S256x5632.rank) ∈ D.rhsNonContracting by decide)]
  rfl
theorem rhs_col (i : S32x256.Idx) (q : D.contr.Idx) : (D.rhsIdx i q 1).val = (q ⟨0, by decide⟩).val :=
  D.rhsIdx_val_of_single rfl i q

/-- The matrix unit's product from a zero accumulator, at (p, q): Σₖ h(p,k)·w(q,k). -/
theorem matmul_entry (x : FVec Ideal S32x5632 .bf16) (w : FVec Ideal S256x5632 .bf16) (p : Fin 32) (q : Fin 256) :
    matmul D none x w (constant (F := Ideal) S32x256 .f32 0x00000000#32) (ix2 p q)
      = ∑ k : Fin 5632, x (ix2 p k) * w (ix2 q k) := by
  show FloatOps.matmul D none x w (constant (F := Ideal) S32x256 .f32 0x00000000#32) (ix2 p q) = _
  rw [Ideal.matmul_constant_zero_apply, ← Equiv.sum_comp (contrEquiv1 D 5632 rfl rfl).symm]
  refine Finset.sum_congr rfl fun k _ => ?_
  have hk := contrEquiv1_symm_val D 5632 rfl rfl k
  have el : D.lhsIdx (ix2 p q) ((contrEquiv1 D 5632 rfl rfl).symm k) = ix2 p k := funext fun a => Fin.ext (by
    match a with
    | ⟨0, _⟩ => exact lhs_row _ _
    | ⟨1, _⟩ => exact (lhs_col _ _).trans hk)
  have er : D.rhsIdx (ix2 p q) ((contrEquiv1 D 5632 rfl rfl).symm k) = ix2 q k := funext fun a => Fin.ext (by
    match a with
    | ⟨0, _⟩ => exact rhs_row _ _
    | ⟨1, _⟩ => exact (rhs_col _ _).trans hk)
  rw [el, er]

/-- A [256, 5632] block of codes dequantized by the body's operations (scales x2, zero points x3). -/
def tile (x1 : Vec Ideal S256x5632 .i32) (x2 x3 : Vec Ideal S256x88 .f32) : FVec Ideal S256x5632 .bf16 :=
  truncf .bf16 (shapeCast S256x5632 (mulf (subf (shapeCast S256x88x64 (sitofp .f32 x1) shapeCasts_S256x5632_S256x88x64)
      (broadcastTo S256x88x64 (shapeCast S256x88x1 x3 shapeCasts_S256x88_S256x88x1) broadcasts_S256x88x1_S256x88x64))
    (broadcastTo S256x88x64 (shapeCast S256x88x1 x2 shapeCasts_S256x88_S256x88x1) broadcasts_S256x88x1_S256x88x64))
    shapeCasts_S256x88x64_S256x5632) bitsLt_bf16_f32

theorem tile_entry (x1 : Vec Ideal S256x5632 .i32) (x2 x3 : Vec Ideal S256x88 .f32) (q : Fin 256) (k : Fin 5632) :
    tile x1 x2 x3 (ix2 q k) = deq c5632 x1 x2 x3 q k :=
  dequant_apply c5632 (by decide) (by decide) x1 x2 x3 _ _ _ _ q k

/-- The body's stored value is the one product. -/
theorem payload_eq (x0 : Vec Ideal S32x5632 .bf16) (x1 : Vec Ideal S256x5632 .i32) (x2 x3 : Vec Ideal S256x88 .f32) :
    k1_pay1 (F := Ideal) x0 x1 x2 x3
      = matmul D none (shapeCast S32x5632 x0 shapeCasts_S32x5632_S32x5632 : FVec Ideal S32x5632 .bf16) (tile x1 x2 x3)
          (constant (F := Ideal) S32x256 .f32 0x00000000#32) := rfl

/-- Entry (p, q) of the stored block: row p of h against row q of the dequantized weight block. -/
theorem payload_entry (x0 : Vec Ideal S32x5632 .bf16) (x1 : Vec Ideal S256x5632 .i32) (x2 x3 : Vec Ideal S256x88 .f32)
    (p : Fin 32) (q : Fin 256) :
    k1_pay1 (F := Ideal) x0 x1 x2 x3 (ix2 p q) = proj c5632 x0 x1 x2 x3 p q := by
  rw [payload_eq, matmul_entry, shapeCast_self]
  unfold proj
  simp only [tile_entry]

end Cert.QuantMlp.Down

end
-- ==== Proof.OutArray.lean ====
/-
  The second kernel's output array, from its blocks.

  Grid point t (0 ≤ t < 8) sees all of the hidden layer h [32, 5632] and rows 256t … 256t+255 of the down codes,
  scales and zero points, and writes columns 256t … 256t+255 of the output [32, 2048]. What it writes at (p, q) is
  row p of h against row 256t+q of the dequantized down weight, the specification's output at (p, 256t+q). The
  eight column strips cover the array.
-/
import proofs.«121343_j16587163697466_2_alg».proof.Proof.Gen.KernelIdeal.Frame
import proofs.«121343_j16587163697466_2_alg».proof.Proof.DownBlock
import Idealize.ShloMosaic.Lib.Pipeline.Value

set_option maxRecDepth 16384

noncomputable section

namespace Cert.QuantMlp.Down

open Cert.KernelIdeal Cert.KernelIdeal.Gen Cert.QuantMlp
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: h stays at block (0,0); the three weight operands are at row block t; the
    output is at column block t. -/
theorem idx_facts : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = t.val :=
  (by decide +kernel : ∀ t : Fin grid1.N, _)

theorem lt_N (t : Fin cfg1.N) : t.val < 8 := by
  have h := t.isLt
  have e : cfg1.N = 8 := N_1
  omega

/-- Row q of point t's weight block is row 256t+q of the weight. -/
def wrow (t : Fin cfg1.N) (q : Fin 256) : Fin 2048 := ⟨t.val * 256 + q.val, by have := lt_N t; have := q.isLt; omega⟩

/-! ## The input blocks as rows of their arrays -/

theorem h_block (c : Dev nD) (t : Fin cfg1.N) (p : Fin 32) (k : Fin 5632) :
    (iblk1 V c 0 t : Vec Ideal S32x5632 .bf16) (ix2 p k) = (V c main_v0 : S32x5632.Idx → EReal) (ix2 p k) := by
  obtain ⟨e0, e1, -⟩ := idx_facts t
  unfold iblk1
  rw [View.read_apply]
  show V c main_v0 _ = V c main_v0 _
  refine congrArg _ (funext fun a => Fin.ext ?_)
  match a with
  | ⟨0, _⟩ => show win1_0.index t (0 : Fin 2) * 32 + 1 * p.val = p.val; rw [e0]; omega
  | ⟨1, _⟩ => show win1_0.index t (1 : Fin 2) * 5632 + 1 * k.val = k.val; rw [e1]; omega

theorem dq_block (c : Dev nD) (t : Fin cfg1.N) (q : Fin 256) (k : Fin 5632) :
    (iblk1 V c 1 t : Vec Ideal S256x5632 .i32) (ix2 q k) = (V c main_arg7 : S2048x5632.Idx → BitVec 32) (ix2 (wrow t q) k) := by
  obtain ⟨-, -, e0, e1, -⟩ := idx_facts t
  unfold iblk1
  rw [View.read_apply]
  show V c main_arg7 _ = V c main_arg7 _
  refine congrArg _ (funext fun a => Fin.ext ?_)
  match a with
  | ⟨0, _⟩ => show win1_1.index t (0 : Fin 2) * 256 + 1 * q.val = t.val * 256 + q.val; rw [e0]; omega
  | ⟨1, _⟩ => show win1_1.index t (1 : Fin 2) * 5632 + 1 * k.val = k.val; rw [e1]; omega

theorem ds_block (c : Dev nD) (t : Fin cfg1.N) (q : Fin 256) (g : Fin 88) :
    (iblk1 V c 2 t : Vec Ideal S256x88 .f32) (ix2 q g) = (V c main_arg8 : S2048x88.Idx → EReal) (ix2 (wrow t q) g) := by
  obtain ⟨-, -, -, -, e0, e1, -⟩ := idx_facts t
  unfold iblk1
  rw [View.read_apply]
  show V c main_arg8 _ = V c main_arg8 _
  refine congrArg _ (funext fun a => Fin.ext ?_)
  match a with
  | ⟨0, _⟩ => show win1_2.index t (0 : Fin 2) * 256 + 1 * q.val = t.val * 256 + q.val; rw [e0]; omega
  | ⟨1, _⟩ => show win1_2.index t (1 : Fin 2) * 88 + 1 * g.val = g.val; rw [e1]; omega

theorem dz_block (c : Dev nD) (t : Fin cfg1.N) (q : Fin 256) (g : Fin 88) :
    (iblk1 V c 3 t : Vec Ideal S256x88 .f32) (ix2 q g) = (V c main_arg9 : S2048x88.Idx → EReal) (ix2 (wrow t q) g) := by
  obtain ⟨-, -, -, -, -, -, e0, e1, -⟩ := idx_facts t
  unfold iblk1
  rw [View.read_apply]
  show V c main_arg9 _ = V c main_arg9 _
  refine congrArg _ (funext fun a => Fin.ext ?_)
  match a with
  | ⟨0, _⟩ => show win1_3.index t (0 : Fin 2) * 256 + 1 * q.val = t.val * 256 + q.val; rw [e0]; omega
  | ⟨1, _⟩ => show win1_3.index t (1 : Fin 2) * 88 + 1 * g.val = g.val; rw [e1]; omega

/-! ## One block of the output -/

/-- A row of h against a block of weight rows that are rows of the whole down weight, is the whole problem's
    product at those rows. -/
theorem proj_of_rows (x0 : Vec Ideal S32x5632 .bf16) (x1 : Vec Ideal S256x5632 .i32) (x2 x3 : Vec Ideal S256x88 .f32)
    (A0 : S32x5632.Idx → EReal) (A1 : S2048x5632.Idx → BitVec 32) (A2 A3 : S2048x88.Idx → EReal)
    (p : Fin 32) (q : Fin 256) (n : Fin 2048)
    (h0 : ∀ k : Fin 5632, x0 (ix2 p k) = A0 (ix2 p k))
    (h1 : ∀ k : Fin 5632, x1 (ix2 q k) = A1 (ix2 n k)) (h2 : ∀ g : Fin 88, x2 (ix2 q g) = A2 (ix2 n g))
    (h3 : ∀ g : Fin 88, x3 (ix2 q g) = A3 (ix2 n g)) :
    proj c5632 x0 x1 x2 x3 p q = proj c5632 A0 A1 A2 A3 p n := by
  unfold proj deq
  simp only [h0, h1, h2, h3]

/-- WHAT POINT t WRITES BACK is block t of the output of the arrays as the region finds them. -/
theorem flushed_eq (c : Dev nD) (t : Fin cfg1.N) :
    (dat1 (F := Ideal) V c).flushed 4 t = ((cfg1.win 4).blk t).view.read (Elt Ideal)
      (outArr (V c main_v0) (V c main_arg7) (V c main_arg8) (V c main_arg9)) := by
  show (cfg1.win 4).cut (grid1.coords t) ((dat1 (F := Ideal) V c).after 4 t) = _
  rw [after1_4]
  unfold out1_4
  rw [View.canon_unit_zero hz]
  simp only [View.ld_unit_zero (S := S32x5632) hz, View.ld_unit_zero (S := S256x5632) hz, View.ld_unit_zero (S := S256x88) hz]
  funext y
  obtain ⟨p, q, rfl⟩ : ∃ (p : Fin 32) (q : Fin 256), y = ix2 p q := ⟨y 0, y 1, eq_ix2 y⟩
  obtain ⟨-, -, -, -, -, -, -, -, e0, e1⟩ := idx_facts t
  show k1_pay1 (F := Ideal) (iblk1 V c 0 t) (iblk1 V c 1 t) (iblk1 V c 2 t) (iblk1 V c 3 t) (ix2 p q)
    = outArr (V c main_v0) (V c main_arg7) (V c main_arg8) (V c main_arg9) (((cfg1.win 4).blk t).view.emb (ix2 p q))
  have hemb : ((cfg1.win 4).blk t).view.emb (ix2 p q) = (ix2 p (wrow t q) : S32x2048.Idx) := funext fun a => Fin.ext (by
    match a with
    | ⟨0, _⟩ => show win1_4.index t (0 : Fin 2) * 32 + 1 * p.val = p.val; rw [e0]; omega
    | ⟨1, _⟩ => show win1_4.index t (1 : Fin 2) * 256 + 1 * q.val = t.val * 256 + q.val; rw [e1]; omega)
  rw [hemb, payload_entry]
  exact proj_of_rows _ _ _ _ _ _ _ _ p q (wrow t q)
    (fun k => h_block V c t p k) (fun k => dq_block V c t q k) (fun g => ds_block V c t q g) (fun g => dz_block V c t q g)

/-- An index of the output array is in point t's block iff each coordinate is in the block's range on its axis. -/
theorem mem_blk (t : Fin cfg1.N) (i : S32x2048.Idx) :
    i ∈ ((cfg1.win 4).blk t).view.set ↔ ∀ a : Fin 2, win1_4.index t a * S32x256.size a ≤ (i a).val ∧ (i a).val < win1_4.index t a * S32x256.size a + S32x256.size a := by
  show i ∈ ((View.whole main_v1).slice (win1_4.rect t)).set ↔ _
  rw [View.set_slice_whole, Rect.mem_set_unit]
  exact Iff.rfl

/-- Every index of the output array is in the block of the point its column strip belongs to. -/
theorem cover (i : S32x2048.Idx) : ∃ t : Fin cfg1.N, (cfg1.win 4).flush t = true ∧ i ∈ ((cfg1.win 4).blk t).view.set := by
  have hi0 : (i 0).val < 32 := (i 0).isLt
  have hi1 : (i 1).val < 2048 := (i 1).isLt
  let t : Fin cfg1.N := ⟨(i 1).val / 256, by rw [show cfg1.N = 8 from N_1]; omega⟩
  obtain ⟨-, -, -, -, -, -, -, -, e0, e1⟩ := idx_facts t
  refine ⟨t, flush1_4 t, ?_⟩
  rw [mem_blk]
  intro a
  match a with
  | ⟨0, _⟩ => show win1_4.index t (0 : Fin 2) * 32 ≤ (i 0).val ∧ (i 0).val < win1_4.index t (0 : Fin 2) * 32 + 32; rw [e0]; omega
  | ⟨1, _⟩ =>
    show win1_4.index t (1 : Fin 2) * 256 ≤ (i 1).val ∧ (i 1).val < win1_4.index t (1 : Fin 2) * 256 + 256
    rw [e1]
    show (i 1).val / 256 * 256 ≤ (i 1).val ∧ (i 1).val < (i 1).val / 256 * 256 + 256
    omega

/-- THE OUTPUT ARRAY after the region: the specification's output of the arrays as the region finds them. -/
theorem final (c : Dev nD) : (dat1 (F := Ideal) V c).arrAt 4 cfg1.N
    = outArr (V c main_v0) (V c main_arg7) (V c main_arg8) (V c main_arg9) :=
  (dat1 (F := Ideal) V c).arrAt_eq_of_cover 4 _ (fun t _ => flushed_eq V c t) cover

end Cert.QuantMlp.Down

end
-- ==== Proof.KernelValue.lean ====
/-
  The kernel program's result as a function of its arguments.

  The second region reads the hidden array the first region wrote and the three down-weight arguments, which no
  region writes; the first region reads the seven gate and up arguments as launched. So the output array ends at
  the specification's output of the hidden layer of the launch memory's arguments.
-/
import proofs.«121343_j16587163697466_2_alg».proof.Proof.KernelRun
import proofs.«121343_j16587163697466_2_alg».proof.Proof.HiddenArray
import proofs.«121343_j16587163697466_2_alg».proof.Proof.OutArray

set_option maxRecDepth 16384

noncomputable section

namespace Cert.QuantMlp.Run

open Cert.KernelIdeal Cert.KernelIdeal.Gen Cert.QuantMlp
open Idealize.ShloMosaic Idealize.ShloMosaic.TcCoe Idealize.SL.Sem

variable (m : (ℓ : Loc nD τ sig) → Buf (Elt Ideal) ℓ) (ρ : Dev nD → PrngReg)

/-- The quantized MLP of the launch memory's argument arrays on core c. -/
def result (c : Dev nD) : Buf (Elt Ideal) ((c.tc : Thread nD τ).loc main_v1) :=
  outArr (hiddenArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
    (m ((c.tc : Thread nD τ).loc main_arg7)) (m ((c.tc : Thread nD τ).loc main_arg8)) (m ((c.tc : Thread nD τ).loc main_arg9))

/-- The hidden array as the second region finds it: the hidden layer of the launch memory's arguments. -/
theorem hidden_entry (c : Dev nD) : V1 (F := Ideal) m ρ c main_v0
    = hiddenArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (W1_arr m ρ c 7).trans (GateUp.final (V0 m ρ) c)

/-- The output array after the second region. -/
theorem result_eq (c : Dev nD) : W2 (F := Ideal) m ρ c (Proc.devRef .tc main_v1) = result m c := by
  have e : W2 (F := Ideal) m ρ c (Proc.devRef .tc main_v1) = (dat1 (V1 m ρ) c).arrAt 4 cfg1.N := W2_arr m ρ c 4
  have h7 : V1 (F := Ideal) m ρ c main_arg7 = m ((c.tc : Thread nD τ).loc main_arg7) := W1_of_ne m ρ c main_arg7 (by decide)
  have h8 : V1 (F := Ideal) m ρ c main_arg8 = m ((c.tc : Thread nD τ).loc main_arg8) := W1_of_ne m ρ c main_arg8 (by decide)
  have h9 : V1 (F := Ideal) m ρ c main_arg9 = m ((c.tc : Thread nD τ).loc main_arg9) := W1_of_ne m ρ c main_arg9 (by decide)
  rw [e, Down.final (V1 m ρ) c, hidden_entry m ρ c, h7, h8, h9]
  rfl

/-- Every weakly fair execution of the kernel program terminates without a fault, the output array at the quantized
    MLP of the arguments and the arguments unchanged. -/
theorem run : θ_run defs (onTc (τ := τ) (main (F := Ideal))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_eq m ρ c), (h c).2⟩) (run_named m ρ)

end Cert.QuantMlp.Run

end
-- ==== Proof.lean ====
/-
  A SwiGLU feed-forward layer with group-quantized weights: out = (silu(x·Wgᵀ) ⊙ (x·Wuᵀ))·Wdᵀ, where each weight is
  stored as integer codes with a scale and a zero point per group of 64 consecutive columns,
  W(r,k) = (code(r,k) − zero(r, k/64))·scale(r, k/64).

  The kernel computes it in two grid-pipelined regions. The first, at grid point t of 11, dequantizes rows
  512t … 512t+511 of the gate and up weights, multiplies x by both on the matrix unit and writes columns
  512t … 512t+511 of the hidden layer h = g·σ(g)·u. The second, at grid point t of 8, dequantizes rows
  256t … 256t+255 of the down weight and writes columns 256t … 256t+255 of h·Wdᵀ. The reference dequantizes the
  whole weights, transposes them and contracts, with silu spelt g·(1/(1+e^(−g))).

  On the extended reals the two are the same function of the arguments, index by index: a change of float format is
  the identity, a matrix product from a zero accumulator is the plain sum over the contracted axis on both sides, the
  logistic function is 1/(1+e^(−g)) by definition, and a reshape to [rows, groups, 64] and back leaves entry (r,k)
  at group k/64. No law that needs finiteness is used: both sides are the same sums of the same products.

  Proof/Spec.lean states that function; Proof/RefIsSpec.lean shows the reference's result is it; Proof/Tile.lean,
  GateUpBlock.lean and DownBlock.lean read what each kernel body stores at one entry; HiddenArray.lean and OutArray.lean
  assemble each region's output array from its column strips; KernelRun.lean and KernelValue.lean state the kernel
  program's run with its result named. The ideal pass rewrote nothing, so the preservation claim is trivial.
-/
import proofs.«121343_j16587163697466_2_alg».proof.Defs
import proofs.«121343_j16587163697466_2_alg».proof.Proof.Gen.Kernel
import proofs.«121343_j16587163697466_2_alg».proof.Proof.Gen.Kernel.Skeleton
import proofs.«121343_j16587163697466_2_alg».proof.Proof.Gen.Kernel.Launch
import proofs.«121343_j16587163697466_2_alg».proof.Proof.Gen.Kernel.Points
import proofs.«121343_j16587163697466_2_alg».proof.Proof.Gen.Kernel.Frame
import proofs.«121343_j16587163697466_2_alg».proof.Proof.Gen.KernelIdeal
import proofs.«121343_j16587163697466_2_alg».proof.Proof.Gen.KernelIdeal.Skeleton
import proofs.«121343_j16587163697466_2_alg».proof.Proof.Gen.KernelIdeal.Launch
import proofs.«121343_j16587163697466_2_alg».proof.Proof.Gen.KernelIdeal.Points
import proofs.«121343_j16587163697466_2_alg».proof.Proof.Gen.KernelIdeal.Frame
import proofs.«121343_j16587163697466_2_alg».proof.Proof.Gen.ReferenceIdeal
import proofs.«121343_j16587163697466_2_alg».proof.Proof.Gen.Pre_finite_inputs
import proofs.«121343_j16587163697466_2_alg».proof.Proof.Gen.ReferenceIdeal.Run
import proofs.«121343_j16587163697466_2_alg».proof.Proof.Gen.ReferenceIdeal.Read
import proofs.«121343_j16587163697466_2_alg».proof.Proof.RefIsSpec
import proofs.«121343_j16587163697466_2_alg».proof.Proof.KernelValue
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- The idealized kernel program runs and leaves its arguments unchanged. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the quantized MLP of those arguments in
    their result arrays: the kernel program by its two regions' column strips, the reference by its operations read at
    an index. -/
theorem algebraic : Cert.algebraic_KernelIdeal_ReferenceIdeal := by
  intro m ρ m' ρ' _ hagree
  refine ⟨fun c => Cert.QuantMlp.Run.result m c, Cert.QuantMlp.Run.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v34_eq, Cert.QuantMlp.Ref.result_eq, a0, a1, a2, a3, a4, a5, a6, a7, a8, a9]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
